-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x1 : Shape := ⟨2, ![600000, 1]⟩
abbrev S2x128x128 : Shape := ⟨3, ![2, 128, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S2x128x128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S600000x1 .f32) (main_arg3 : FVec F S2x128x128 .f32) (main_arg4 : FVec F S128x128 .f32) (main_arg5 : FVec F S128 .f32) (main_arg6 : FVec F S2x128x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S600000x1 : Shape := ⟨2, ![600000, 1]⟩
abbrev S2x128x128 : Shape := ⟨3, ![2, 128, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128 : Shape := ⟨2, ![1, 128]⟩
abbrev S5000x128 : Shape := ⟨2, ![5000, 128]⟩
abbrev S1x128x128 : Shape := ⟨3, ![1, 128, 128]⟩
abbrev S_ : Shape := ⟨0, ![]⟩
abbrev S600000x128 : Shape := ⟨2, ![600000, 128]⟩
abbrev S50000 : Shape := ⟨1, ![50000]⟩
abbrev S50000x1 : Shape := ⟨2, ![50000, 1]⟩

abbrev nBuf : Space → Nat
  | .hbm => 107
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S2x128x128, .f32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S600000x1, .f32⟩
  | .hbm, ⟨19, _⟩ => ⟨S600000x1, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x128, .f32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S50000x128, .f32⟩
  | .hbm, ⟨45, _⟩ => ⟨S600000x1, .i32⟩
  | .hbm, ⟨46, _⟩ => ⟨S50000x128, .f32⟩
  | .hbm, ⟨47, _⟩ => ⟨S_, .f32⟩
  | .hbm, ⟨48, _⟩ => ⟨S600000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S600000x1, .f32⟩
  | .hbm, ⟨66, _⟩ => ⟨S600000x1, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x128, .f32⟩
  | .hbm, ⟨77, _⟩ => ⟨S600000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S600000x128, .f32⟩
  | .hbm, ⟨88, _⟩ => ⟨S600000x128, .f32⟩
  | .hbm, ⟨89, _⟩ => ⟨S600000x128, .f32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S_, .f32⟩
  | .hbm, ⟨95, _⟩ => ⟨S600000, .f32⟩
  | .hbm, ⟨96, _⟩ => ⟨S_, .f32⟩
  | .hbm, ⟨97, _⟩ => ⟨S50000, .f32⟩
  | .hbm, ⟨98, _⟩ => ⟨S600000x1, .i32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S2x128x128, .f32⟩
  | .local _ .vmem, ⟨3, _⟩ => ⟨S128x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S2x128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v41_2 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000x1 : S_.BroadcastsInDim S600000x1 (![] : Fin 0 → Fin S600000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S2x128x128.size a
  hwx0_1 : ∀ i : grid0.Coords, EltTy.bits .f32 = 32 ∨ (Rect.block (s := S2x128x128) S2x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128x128.size a ≤ S2x128x128.size a
  hwx1_1 : ∀ i : grid1.Coords, EltTy.bits .f32 = 32 ∨ (Rect.block (s := S2x128x128) S2x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S2x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41_1) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v41_2) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x1 : Shape := ⟨2, ![600000, 1]⟩
abbrev S2x128x128 : Shape := ⟨3, ![2, 128, 128]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S1x128x128 : Shape := ⟨3, ![1, 128, 128]⟩
abbrev S_ : Shape := ⟨0, ![]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x1, .f32⟩
  | .hbm, ⟨3, _⟩ => ⟨S2x128x128, .f32⟩
  | .hbm, ⟨4, _⟩ => ⟨S128x128, .f32⟩
  | .hbm, ⟨5, _⟩ => ⟨S128, .f32⟩
  | .hbm, ⟨6, _⟩ => ⟨S2x128x128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S1x128x128, .f32⟩
  | .hbm, ⟨14, _⟩ => ⟨S128x128, .f32⟩
  | .hbm, ⟨15, _⟩ => ⟨S50000x128, .f32⟩
  | .hbm, ⟨16, _⟩ => ⟨S1x128x128, .f32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S600000x1, .f32⟩
  | .hbm, ⟨21, _⟩ => ⟨S600000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S600000x128, .f32⟩
  | .hbm, ⟨32, _⟩ => ⟨S600000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S600000x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S_, .f32⟩
  | .hbm, ⟨50, _⟩ => ⟨S600000, .f32⟩
  | .hbm, ⟨51, _⟩ => ⟨S_, .f32⟩
  | .hbm, ⟨52, _⟩ => ⟨S50000, .f32⟩
  | .hbm, ⟨53, _⟩ => ⟨S600000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S_, .f32⟩
  | .hbm, ⟨73, _⟩ => ⟨S600000x1, .f32⟩
  | .hbm, ⟨74, _⟩ => ⟨S600000x1, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S600000x128, .f32⟩
  | .hbm, ⟨85, _⟩ => ⟨S600000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S600000x128, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S_, .f32⟩
  | .hbm, ⟨103, _⟩ => ⟨S600000, .f32⟩
  | .hbm, ⟨104, _⟩ => ⟨S_, .f32⟩
  | .hbm, ⟨105, _⟩ => ⟨S50000, .f32⟩
  | .hbm, ⟨106, _⟩ => ⟨S600000x1, .i32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | .hbm, ⟨111, _⟩ => ⟨S50000x1, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_10 : Ref sig .tc := ⟨.hbm, 86, rfl⟩
abbrev main_v65 : Ref sig .tc := ⟨.hbm, 87, rfl⟩
abbrev main_v66 : Ref sig .tc := ⟨.hbm, 88, rfl⟩
abbrev main_c_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S_S600000x1 : S_.BroadcastsInDim S600000x1 (![] : Fin 0 → Fin S600000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf

class Facts : Prop extends Facts₀ where

variable [Facts]
-- ==== Proof.KHost.lean ====
/-
  The host operations of the kernel's program, one stretch at a time, each stretch read as a pure function of the
  buffers it finds (an arbitrary valuation `W` of the device's buffers).

  The first stretch cuts the edge list into its row of sources and its row of destinations and lays the first bias
  out as one row. Each of the two later stretches is one layer's aggregation: a node's new features are the mean,
  over the edges that end at the node, of the edge's message `(1 - u) · h0[src] + u · h1[src]`, plus the node's own
  transformed features `xr`; `meanAgg` is that mean as one term of `h0`, `h1`, the two edge rows and `u`.
-/
import proofs.«112366_j81758997447374_1_alg».proof.Proof.Gen.KernelIdeal.Launch
import Idealize.ShloMosaic.Lib.StableHlo.Run

noncomputable section

namespace Cert.KernelIdeal.HostV

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the edge list. -/
def edgeRow0 (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The edges' destination nodes: row 1 of the edge list. -/
def edgeRow1 (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A bias vector laid out as one row. -/
def asRow (b : (⟨S128, .f32⟩ : BufTy).Contents (Elt F)) : (⟨S1x128, .f32⟩ : BufTy).Contents (Elt F) :=
  shapeCast _ b shapeCasts_S128_S1x128

/-- The mean, over the edges ending at each node, of the messages `(1 - u) · h0[src] + u · h1[src]`: the messages'
    scatter-sum by destination divided by `max (number of edges ending there) 1`. -/
def meanAgg (src dst : (⟨S600000, .i32⟩ : BufTy).Contents (Elt F)) (u : (⟨S600000x1, .f32⟩ : BufTy).Contents (Elt F))
    (h0 h1 : (⟨S50000x128, .f32⟩ : BufTy).Contents (Elt F)) : (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (addf (mulf (broadcastInDim S600000x128 ![0, 1] bcast_S600000x1_S600000x128_0_1 (subf (broadcastInDim S600000x1 ![] bcast_S_S600000x1 (constant S_ .f32 0x3F800000#32)) u)) (Host.gather gather_S50000x128_S600000x1_S600000x128_1_0_n_n_0_1_1128 h0 (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))) (mulf (broadcastInDim S600000x128 ![0, 1] bcast_S600000x1_S600000x128_0_1 u) (Host.gather gather_S50000x128_S600000x1_S600000x128_1_0_n_n_0_1_1128 h1 (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))) (broadcastInDim S50000 ![] bcast_S_S50000 (constant S_ .f32 0x3F800000#32)))))

variable (W : Valuation τ sig (Elt F))

/-! ## The first stretch -/

theorem ops0_v1 : after hostOps0 W (Proc.devRef .tc main_v1) = edgeRow0 (W (Proc.devRef .tc main_arg1)) := by
  unfold edgeRow0; after_results; rfl
theorem ops0_v3 : after hostOps0 W (Proc.devRef .tc main_v3) = edgeRow1 (W (Proc.devRef .tc main_arg1)) := by
  unfold edgeRow1; after_results; rfl
theorem ops0_v4 : after hostOps0 W (Proc.devRef .tc main_v4) = asRow (W (Proc.devRef .tc main_arg5)) := by
  unfold asRow; after_results; rfl
theorem ops0_arg0 : after hostOps0 W (Proc.devRef .tc main_arg0) = W (Proc.devRef .tc main_arg0) := by
  after_results_simp
theorem ops0_arg2 : after hostOps0 W (Proc.devRef .tc main_arg2) = W (Proc.devRef .tc main_arg2) := by
  after_results_simp
theorem ops0_arg3 : after hostOps0 W (Proc.devRef .tc main_arg3) = W (Proc.devRef .tc main_arg3) := by
  after_results_simp
theorem ops0_arg4 : after hostOps0 W (Proc.devRef .tc main_arg4) = W (Proc.devRef .tc main_arg4) := by
  after_results_simp
theorem ops0_arg6 : after hostOps0 W (Proc.devRef .tc main_arg6) = W (Proc.devRef .tc main_arg6) := by
  after_results_simp
theorem ops0_arg7 : after hostOps0 W (Proc.devRef .tc main_arg7) = W (Proc.devRef .tc main_arg7) := by
  after_results_simp
theorem ops0_arg8 : after hostOps0 W (Proc.devRef .tc main_arg8) = W (Proc.devRef .tc main_arg8) := by
  after_results_simp

/-! ## The stretch between the two calls: the first layer's aggregation -/

theorem ops1_v39 : after hostOps1 W (Proc.devRef .tc main_v39)
    = addf (meanAgg (W (Proc.devRef .tc main_v1)) (W (Proc.devRef .tc main_v3)) (W (Proc.devRef .tc main_arg2))
        (W (Proc.devRef .tc main_v5_0)) (W (Proc.devRef .tc main_v5_1))) (W (Proc.devRef .tc main_v5_2)) := by
  unfold meanAgg; after_results_simp <;> rfl
theorem ops1_v40 : after hostOps1 W (Proc.devRef .tc main_v40) = asRow (W (Proc.devRef .tc main_arg8)) := by
  unfold asRow; after_results_simp <;> rfl
theorem ops1_v1 : after hostOps1 W (Proc.devRef .tc main_v1) = W (Proc.devRef .tc main_v1) := by
  after_results_simp
theorem ops1_v3 : after hostOps1 W (Proc.devRef .tc main_v3) = W (Proc.devRef .tc main_v3) := by
  after_results_simp
theorem ops1_arg2 : after hostOps1 W (Proc.devRef .tc main_arg2) = W (Proc.devRef .tc main_arg2) := by
  after_results_simp
theorem ops1_arg6 : after hostOps1 W (Proc.devRef .tc main_arg6) = W (Proc.devRef .tc main_arg6) := by
  after_results_simp
theorem ops1_arg7 : after hostOps1 W (Proc.devRef .tc main_arg7) = W (Proc.devRef .tc main_arg7) := by
  after_results_simp

/-! ## The last stretch: the second layer's aggregation -/

theorem ops2_v75 : after hostOps2 W (Proc.devRef .tc main_v75)
    = addf (meanAgg (W (Proc.devRef .tc main_v1)) (W (Proc.devRef .tc main_v3)) (W (Proc.devRef .tc main_arg2))
        (W (Proc.devRef .tc main_v41_0)) (W (Proc.devRef .tc main_v41_1))) (W (Proc.devRef .tc main_v41_2)) := by
  unfold meanAgg; after_results_simp <;> rfl

end Cert.KernelIdeal.HostV

end
-- ==== Proof.Spec.lean ====
/-
  The three dense products of one layer, as whole-array functions at the extended reals.

  For node features `x : [50000, 128]`, a stack `w : [2, 128, 128]` of two weight slabs, a root weight
  `r : [128, 128]` and a bias laid out as one row `b : [1, 128]`:
    `prodSlab g x w (n, q) = ∑ k, x (n, k) · w (g, k, q)`          (the features times slab `g`),
    `prodRoot x r b (n, q) = ∑ k, x (n, k) · r (k, q) + b (0, q)`   (the features times the root weight, plus the bias).
-/
import Idealize.ShloMosaic.PureOps.Ideal
import Idealize.ShloMosaic.Lib.ValueIdx

noncomputable section

namespace Cert.Spec

open Idealize.ShloMosaic Idealize.ShloMosaic.ValueIdx

/-- The features times slab `g` of the weight stack. -/
def prodSlab (g : Fin 2) (x : FVec Ideal ⟨2, ![50000, 128]⟩ .f32) (w : FVec Ideal ⟨3, ![2, 128, 128]⟩ .f32) :
    FVec Ideal ⟨2, ![50000, 128]⟩ .f32 :=
  fun i => ∑ k : Fin 128, x (ix2 (i 0 : Fin 50000) k) * w (ix3 g k (i 1 : Fin 128))

/-- The features times the root weight, plus the bias row. -/
def prodRoot (x : FVec Ideal ⟨2, ![50000, 128]⟩ .f32) (r : FVec Ideal ⟨2, ![128, 128]⟩ .f32)
    (b : FVec Ideal ⟨2, ![1, 128]⟩ .f32) : FVec Ideal ⟨2, ![50000, 128]⟩ .f32 :=
  fun i => (∑ k : Fin 128, x (ix2 (i 0 : Fin 50000) k) * r (ix2 k (i 1 : Fin 128))) + b (ix2 (0 : Fin 1) (i 1 : Fin 128))

theorem prodSlab_apply (g : Fin 2) (x : FVec Ideal ⟨2, ![50000, 128]⟩ .f32) (w : FVec Ideal ⟨3, ![2, 128, 128]⟩ .f32)
    (n : Fin 50000) (q : Fin 128) :
    prodSlab g x w (ix2 n q) = ∑ k : Fin 128, x (ix2 n k) * w (ix3 g k q) := rfl

theorem prodRoot_apply (x : FVec Ideal ⟨2, ![50000, 128]⟩ .f32) (r : FVec Ideal ⟨2, ![128, 128]⟩ .f32)
    (b : FVec Ideal ⟨2, ![1, 128]⟩ .f32) (n : Fin 50000) (q : Fin 128) :
    prodRoot x r b (ix2 n q) = (∑ k : Fin 128, x (ix2 n k) * r (ix2 k q)) + b (ix2 (0 : Fin 1) q) := rfl

end Cert.Spec

end
-- ==== Proof.KLayer.lean ====
/-
  One layer of the network as the kernel's program computes it.

  `layer x ei u W root b = meanAgg (rows of ei) u (x · W₀) (x · W₁) + (x · root + b)`: the mean, over the edges ending
  at each node, of the blended slab products gathered at the edges' sources, plus the root product to which the bias
  has already been added.
-/
import proofs.«112366_j81758997447374_1_alg».proof.Proof.KHost
import proofs.«112366_j81758997447374_1_alg».proof.Proof.Spec

noncomputable section

namespace Cert.KernelIdeal.Fold

open Cert.KernelIdeal Idealize.ShloMosaic
open Cert.KernelIdeal.HostV Cert.Spec

/-- One layer as the kernel's program computes it: the mean aggregation of the blended messages over the two slab
    products, plus the root product with the bias already added. -/
def layer (x : FVec Ideal S50000x128 .f32) (ei : (⟨S2x600000, .i32⟩ : BufTy).Contents (Elt Ideal))
    (u : FVec Ideal S600000x1 .f32) (W : FVec Ideal S2x128x128 .f32) (root : FVec Ideal S128x128 .f32)
    (b : FVec Ideal S128 .f32) : FVec Ideal S50000x128 .f32 :=
  addf (meanAgg (F := Ideal) (edgeRow0 ei) (edgeRow1 ei) u (prodSlab 0 x W) (prodSlab 1 x W)) (prodRoot x root (asRow (F := Ideal) b))

/-- Equal arguments, equal root products. -/
theorem prodRoot_congr {x x' : FVec Ideal ⟨2, ![50000, 128]⟩ .f32} {r r' : FVec Ideal ⟨2, ![128, 128]⟩ .f32}
    {b b' : FVec Ideal ⟨2, ![1, 128]⟩ .f32} (hx : x = x') (hr : r = r') (hb : b = b') :
    prodRoot x r b = prodRoot x' r' b' := by
  subst hx hr hb; rfl

end Cert.KernelIdeal.Fold

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KPayload.lean ====
/-
  What the dense kernel's body stores, read at an entry of the block, at the extended reals.

  The body loads a block of 5000 rows of the node features, the two 128 × 128 weight slabs, the root weight and the
  bias row, rounds the matrices to bf16 (a change of format: the identity at the extended reals) and stores three
  products. Entry `(p, q)` of the first two is `∑ k, x (p, k) · w (g, k, q)` for slab `g = 0, 1`; of the third,
  `∑ k, x (p, k) · root (k, q) + b (0, q)`. Both calls' bodies are the same arithmetic.
-/
import proofs.«112366_j81758997447374_1_alg».proof.Proof.Gen.KernelIdeal.Skeleton
import proofs.«112366_j81758997447374_1_alg».proof.Proof.LibPlainProduct
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- A one-slab stack read as the slab. -/
theorem slab_apply (v : Vec Ideal S1x128x128 .f32) (k q : Fin 128) :
    shapeCast S128x128 v shapeCasts_S1x128x128_S128x128 (ix2 k q) = v (ix3 (0 : Fin 1) k q) := by
  refine shapeCast_apply v _ (ix2 k q) (ix3 (0 : Fin 1) k q) ?_
  rw [Shape.rowMajor_val_three, Shape.rowMajor_val_two]
  show (0 * 128 + k.val) * 128 + q.val = k.val * 128 + q.val
  omega

/-- The bias row laid along every row of the block. -/
theorem biasRow_apply (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  refine broadcastTo_apply v _ (ix2 p q) (ix2 (0 : Fin 1) q) ?_
  intro a
  match a with
  | ⟨0, _⟩ => rfl
  | ⟨1, _⟩ => rfl

/-! ## The first call's body -/

theorem pay0_2_apply (v0 : Vec Ideal S5000x128 .f32) (v2 : Vec Ideal S1x128x128 .f32) (p : Fin 5000) (q : Fin 128) :
    k0_pay2 (F := Ideal) v0 v2 (ix2 p q) = ∑ k : Fin 128, v0 (ix2 p k) * v2 (ix3 (0 : Fin 1) k q) := by
  unfold k0_pay2 k0_pay1
  refine (Cert.PlainProduct.matmul_plain_apply _ rfl none _ _ p q).trans ?_
  refine Finset.sum_congr rfl fun k _ => ?_
  rw [truncf_apply, truncf_apply, slab_apply]

theorem pay0_3_apply (v0 : Vec Ideal S5000x128 .f32) (v5 : Vec Ideal S1x128x128 .f32) (p : Fin 5000) (q : Fin 128) :
    k0_pay3 (F := Ideal) v0 v5 (ix2 p q) = ∑ k : Fin 128, v0 (ix2 p k) * v5 (ix3 (0 : Fin 1) k q) := by
  unfold k0_pay3 k0_pay1
  refine (Cert.PlainProduct.matmul_plain_apply _ rfl none _ _ p q).trans ?_
  refine Finset.sum_congr rfl fun k _ => ?_
  rw [truncf_apply, truncf_apply, slab_apply]

theorem pay0_4_apply (v0 : Vec Ideal S5000x128 .f32) (v8 : Vec Ideal S128x128 .f32) (v13 : Vec Ideal S1x128 .f32)
    (p : Fin 5000) (q : Fin 128) :
    k0_pay4 (F := Ideal) v0 v8 v13 (ix2 p q) = (∑ k : Fin 128, v0 (ix2 p k) * v8 (ix2 k q)) + v13 (ix2 (0 : Fin 1) q) := by
  unfold k0_pay4 k0_pay1
  rw [addf_apply, biasRow_apply]
  refine congrArg (· + v13 (ix2 (0 : Fin 1) q)) ?_
  refine (Cert.PlainProduct.matmul_plain_apply _ rfl none _ _ p q).trans ?_
  refine Finset.sum_congr rfl fun k _ => ?_
  rw [truncf_apply, truncf_apply]

/-! ## The second call's body -/

theorem pay1_2_apply (v0 : Vec Ideal S5000x128 .f32) (v3 : Vec Ideal S1x128x128 .f32) (p : Fin 5000) (q : Fin 128) :
    k1_pay2 (F := Ideal) v0 v3 (ix2 p q) = ∑ k : Fin 128, v0 (ix2 p k) * v3 (ix3 (0 : Fin 1) k q) := by
  unfold k1_pay2 k1_pay1
  refine (Cert.PlainProduct.matmul_plain_apply _ rfl none _ _ p q).trans ?_
  refine Finset.sum_congr rfl fun k _ => ?_
  rw [truncf_apply, truncf_apply, slab_apply, shapeCast_self]

theorem pay1_3_apply (v0 : Vec Ideal S5000x128 .f32) (v6 : Vec Ideal S1x128x128 .f32) (p : Fin 5000) (q : Fin 128) :
    k1_pay3 (F := Ideal) v0 v6 (ix2 p q) = ∑ k : Fin 128, v0 (ix2 p k) * v6 (ix3 (0 : Fin 1) k q) := by
  unfold k1_pay3 k1_pay1
  refine (Cert.PlainProduct.matmul_plain_apply _ rfl none _ _ p q).trans ?_
  refine Finset.sum_congr rfl fun k _ => ?_
  rw [truncf_apply, truncf_apply, slab_apply, shapeCast_self]

theorem pay1_4_apply (v0 : Vec Ideal S5000x128 .f32) (v9 : Vec Ideal S128x128 .f32) (v14 : Vec Ideal S1x128 .f32)
    (p : Fin 5000) (q : Fin 128) :
    k1_pay4 (F := Ideal) v0 v9 v14 (ix2 p q) = (∑ k : Fin 128, v0 (ix2 p k) * v9 (ix2 k q)) + v14 (ix2 (0 : Fin 1) q) := by
  unfold k1_pay4 k1_pay1
  rw [addf_apply, biasRow_apply]
  refine congrArg (· + v14 (ix2 (0 : Fin 1) q)) ?_
  refine (Cert.PlainProduct.matmul_plain_apply _ rfl none _ _ p q).trans ?_
  refine Finset.sum_congr rfl fun k _ => ?_
  rw [truncf_apply, truncf_apply, shapeCast_self]

end Cert.KernelIdeal.Payload

end
-- ==== Proof.KRegion0.lean ====
/-
  Call 0 of the dense kernel, from its blocks to its three result arrays.

  The grid has ten points; point `t` reads rows `5000 t … 5000 t + 4999` of the features and the whole of the weight
  stack, the root weight and the bias row, and writes the same rows of the three results. So what point `t` writes
  back is block `t` of one whole-array function of the arrays the call finds (`Cert.Spec.prodSlab 0`, `prodSlab 1`,
  `prodRoot`), the blocks cover the arrays, and each result array ends holding that function.
-/
import proofs.«112366_j81758997447374_1_alg».proof.Proof.Gen.KernelIdeal.Frame
import proofs.«112366_j81758997447374_1_alg».proof.Proof.KPayload
import proofs.«112366_j81758997447374_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.KernelIdeal.Payload
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the feature window and the three result windows sit at block
    `t` of the rows, every other window at its whole array. -/
theorem idx_facts : ∀ t : Fin cfg0.N,
      win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt_rows (t : Fin cfg0.N) (p : Fin 5000) : t.val * 5000 + p.val < 50000 := by
  have h1 : t.val < 10 := by have h := t.isLt; have e : cfg0.N = 10 := N_0; omega
  have h2 := p.isLt
  omega

/-! ## The input blocks, read at their coordinates -/

/-- Entry `(p, k)` of the feature block at point `t` is entry `(5000 t + p, k)` of the feature array. -/
theorem feat_read (c : Dev nD) (t : Fin cfg0.N) (p : Fin 5000) (k : Fin 128) :
    iblk0 V c 0 t (ix2 p k) = V c main_arg0 (ix2 (⟨t.val * 5000 + p.val, lt_rows t p⟩ : Fin 50000) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The body's load of slab `0` of the weight stack's block is slab `0` of the array. -/
theorem slab0_read (c : Dev nD) (t : Fin cfg0.N) (k q : Fin 128) :
    View.ld (iblk0 V c 1 t) r0_1 (ix3 (0 : Fin 1) k q) = V c main_arg3 (ix3 (0 : Fin 2) k q) := by
  obtain ⟨-, -, e0, e1, e2, -⟩ := idx_facts t
  show V c main_arg3 (((cfg0.win 1).blk t).view.emb (r0_1.idx (ix3 (0 : Fin 1) k q))) = _
  refine congrArg (V c main_arg3) (funext fun a => Fin.ext ?_)
  match a with
  | ⟨0, _⟩ => show win0_1.index t (0 : Fin 3) * 2 + 1 * (0 + 1 * 0) = 0; omega
  | ⟨1, _⟩ => show win0_1.index t (1 : Fin 3) * 128 + 1 * (0 + 1 * k.val) = k.val; omega
  | ⟨2, _⟩ => show win0_1.index t (2 : Fin 3) * 128 + 1 * (0 + 1 * q.val) = q.val; omega

/-- The body's load of slab `1` of the weight stack's block is slab `1` of the array. -/
theorem slab1_read (c : Dev nD) (t : Fin cfg0.N) (k q : Fin 128) :
    View.ld (iblk0 V c 1 t) r0_2 (ix3 (0 : Fin 1) k q) = V c main_arg3 (ix3 (1 : Fin 2) k q) := by
  obtain ⟨-, -, e0, e1, e2, -⟩ := idx_facts t
  show V c main_arg3 (((cfg0.win 1).blk t).view.emb (r0_2.idx (ix3 (0 : Fin 1) k q))) = _
  refine congrArg (V c main_arg3) (funext fun a => Fin.ext ?_)
  match a with
  | ⟨0, _⟩ => show win0_1.index t (0 : Fin 3) * 2 + 1 * (1 + 1 * 0) = 1; omega
  | ⟨1, _⟩ => show win0_1.index t (1 : Fin 3) * 128 + 1 * (0 + 1 * k.val) = k.val; omega
  | ⟨2, _⟩ => show win0_1.index t (2 : Fin 3) * 128 + 1 * (0 + 1 * q.val) = q.val; omega

/-- The root weight's block is the array. -/
theorem root_read (c : Dev nD) (t : Fin cfg0.N) (k q : Fin 128) :
    iblk0 V c 2 t (ix2 k q) = V c main_arg4 (ix2 k q) := by
  obtain ⟨-, -, -, -, -, e0, e1, -⟩ := idx_facts t
  show V c main_arg4 (((cfg0.win 2).blk t).view.emb (ix2 k q)) = _
  refine congrArg (V c main_arg4) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row's block is the array. -/
theorem bias_read (c : Dev nD) (t : Fin cfg0.N) (q : Fin 128) :
    iblk0 V c 3 t (ix2 (0 : Fin 1) q) = V c main_v4 (ix2 (0 : Fin 1) q) := by
  obtain ⟨-, -, -, -, -, -, -, e0, e1, -⟩ := idx_facts t
  show V c main_v4 (((cfg0.win 3).blk t).view.emb (ix2 (0 : Fin 1) q)) = _
  refine congrArg (V c main_v4) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-! ## Result window 4 -/

/-- Entry `(p, q)` of result window 4's block at point `t` sits at `(5000 t + p, q)` of its array. -/
theorem emb4 (t : Fin cfg0.N) (p : Fin 5000) (q : Fin 128) :
    ((cfg0.win 4).blk t).view.emb (ix2 p q) = ix2 (⟨t.val * 5000 + p.val, lt_rows t p⟩ : Fin 50000) q := by
  have e := idx_facts t
  refine funext fun a => Fin.ext ?_
  match a with
  | ⟨0, _⟩ => show win0_4.index t (0 : Fin 2) * 5000 + 1 * p.val = t.val * 5000 + p.val; omega
  | ⟨1, _⟩ => show win0_4.index t (1 : Fin 2) * 128 + 1 * q.val = q.val; omega

/-- What point `t` writes back through window 4 is block `t` of one function of the arrays the call finds. -/
theorem flushed4_eq (c : Dev nD) (t : Fin cfg0.N) :
    (dat0 V c).flushed 4 t = ((cfg0.win 4).blk t).view.read (Elt Ideal) (Cert.Spec.prodSlab 0 (V c main_arg0) (V c main_arg3)) := by
  show (cfg0.win 4).cut (grid0.coords t) ((dat0 V c).after 4 t) = _
  rw [after0_4]
  unfold out0_4
  rw [View.canon_unit_zero hz2]
  simp only [View.ld_unit_zero (S := S5000x128) hz2]
  funext j
  obtain ⟨p, q, rfl⟩ : ∃ (p : Fin 5000) (q : Fin 128), j = ix2 p q := ⟨j 0, j 1, eq_ix2 (n0 := 5000) (n1 := 128) j⟩
  show k0_pay2 (iblk0 V c 0 t) (View.ld (iblk0 V c 1 t) r0_1) (ix2 p q)
      = Cert.Spec.prodSlab 0 (V c main_arg0) (V c main_arg3) (((cfg0.win 4).blk t).view.emb (ix2 p q))
  rw [emb4 t p q, Cert.Spec.prodSlab_apply]
  refine (pay0_2_apply _ _ p q).trans ?_
  refine Finset.sum_congr rfl fun k _ => ?_
  rw [feat_read V c t p k, slab0_read V c t k q]

/-- An index of the array is in point `t`'s block iff each coordinate is in the block's range on its axis. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v5_0).slice (win0_4.rect t)).set ↔ _
  rw [View.set_slice_whole, Rect.mem_set_unit]
  exact Iff.rfl

/-- Every index of the array is in the block of the point its row falls in. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  have e := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The array of result window 4 after the call. -/
theorem final4 (c : Dev nD) :
    (dat0 V c).arrAt 4 cfg0.N = Cert.Spec.prodSlab 0 (V c main_arg0) (V c main_arg3) :=
  (dat0 V c).arrAt_eq_of_cover 4 _ (fun t _ => flushed4_eq V c t) cover4

/-! ## Result window 5 -/

/-- Entry `(p, q)` of result window 5's block at point `t` sits at `(5000 t + p, q)` of its array. -/
theorem emb5 (t : Fin cfg0.N) (p : Fin 5000) (q : Fin 128) :
    ((cfg0.win 5).blk t).view.emb (ix2 p q) = ix2 (⟨t.val * 5000 + p.val, lt_rows t p⟩ : Fin 50000) q := by
  have e := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back through window 5 is block `t` of one function of the arrays the call finds. -/
theorem flushed5_eq (c : Dev nD) (t : Fin cfg0.N) :
    (dat0 V c).flushed 5 t = ((cfg0.win 5).blk t).view.read (Elt Ideal) (Cert.Spec.prodSlab 1 (V c main_arg0) (V c main_arg3)) := by
  show (cfg0.win 5).cut (grid0.coords t) ((dat0 V c).after 5 t) = _
  rw [after0_5]
  unfold out0_5
  rw [View.canon_unit_zero hz2]
  simp only [View.ld_unit_zero (S := S5000x128) hz2]
  funext j
  obtain ⟨p, q, rfl⟩ : ∃ (p : Fin 5000) (q : Fin 128), j = ix2 p q := ⟨j 0, j 1, eq_ix2 (n0 := 5000) (n1 := 128) j⟩
  show k0_pay3 (iblk0 V c 0 t) (View.ld (iblk0 V c 1 t) r0_2) (ix2 p q)
      = Cert.Spec.prodSlab 1 (V c main_arg0) (V c main_arg3) (((cfg0.win 5).blk t).view.emb (ix2 p q))
  rw [emb5 t p q, Cert.Spec.prodSlab_apply]
  refine (pay0_3_apply _ _ p q).trans ?_
  refine Finset.sum_congr rfl fun k _ => ?_
  rw [feat_read V c t p k, slab1_read V c t k q]

/-- An index of the array is in point `t`'s block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v5_1).slice (win0_5.rect t)).set ↔ _
  rw [View.set_slice_whole, Rect.mem_set_unit]
  exact Iff.rfl

/-- Every index of the array is in the block of the point its row falls in. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  have e := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array of result window 5 after the call. -/
theorem final5 (c : Dev nD) :
    (dat0 V c).arrAt 5 cfg0.N = Cert.Spec.prodSlab 1 (V c main_arg0) (V c main_arg3) :=
  (dat0 V c).arrAt_eq_of_cover 5 _ (fun t _ => flushed5_eq V c t) cover5

/-! ## Result window 6 -/

/-- Entry `(p, q)` of result window 6's block at point `t` sits at `(5000 t + p, q)` of its array. -/
theorem emb6 (t : Fin cfg0.N) (p : Fin 5000) (q : Fin 128) :
    ((cfg0.win 6).blk t).view.emb (ix2 p q) = ix2 (⟨t.val * 5000 + p.val, lt_rows t p⟩ : Fin 50000) q := by
  have e := idx_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-- What point `t` writes back through window 6 is block `t` of one function of the arrays the call finds. -/
theorem flushed6_eq (c : Dev nD) (t : Fin cfg0.N) :
    (dat0 V c).flushed 6 t = ((cfg0.win 6).blk t).view.read (Elt Ideal) (Cert.Spec.prodRoot (V c main_arg0) (V c main_arg4) (V c main_v4)) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 (n0 := 5000) (n1 := 128) j⟩
  show k0_pay4 (iblk0 V c 0 t) (iblk0 V c 2 t) (iblk0 V c 3 t) (ix2 p q)
      = Cert.Spec.prodRoot (V c main_arg0) (V c main_arg4) (V c main_v4) (((cfg0.win 6).blk t).view.emb (ix2 p q))
  rw [emb6 t p q, Cert.Spec.prodRoot_apply]
  refine (pay0_4_apply _ _ _ p q).trans ?_
  rw [bias_read V c t q]
  refine congrArg (· + V c main_v4 (ix2 (0 : Fin 1) q)) ?_
  refine Finset.sum_congr rfl fun k _ => ?_
  rw [feat_read V c t p k, root_read V c t k q]

/-- An index of the array is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v5_2).slice (win0_6.rect t)).set ↔ _
  rw [View.set_slice_whole, Rect.mem_set_unit]
  exact Iff.rfl

/-- Every index of the array is in the block of the point its row falls in. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  have e := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The array of result window 6 after the call. -/
theorem final6 (c : Dev nD) :
    (dat0 V c).arrAt 6 cfg0.N = Cert.Spec.prodRoot (V c main_arg0) (V c main_arg4) (V c main_v4) :=
  (dat0 V c).arrAt_eq_of_cover 6 _ (fun t _ => flushed6_eq V c t) cover6

end Cert.KernelIdeal.Region0

end
-- ==== Proof.KRegion1.lean ====
/-
  Call 1 of the dense kernel, from its blocks to its three result arrays.

  The grid has ten points; point `t` reads rows `5000 t … 5000 t + 4999` of the features and the whole of the weight
  stack, the root weight and the bias row, and writes the same rows of the three results. So what point `t` writes
  back is block `t` of one whole-array function of the arrays the call finds (`Cert.Spec.prodSlab 0`, `prodSlab 1`,
  `prodRoot`), the blocks cover the arrays, and each result array ends holding that function.
-/
import proofs.«112366_j81758997447374_1_alg».proof.Proof.Gen.KernelIdeal.Frame
import proofs.«112366_j81758997447374_1_alg».proof.Proof.KPayload
import proofs.«112366_j81758997447374_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.KernelIdeal.Payload
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the feature window and the three result windows sit at block
    `t` of the rows, every other window at its whole array. -/
theorem idx_facts : ∀ t : Fin cfg1.N,
      win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt_rows (t : Fin cfg1.N) (p : Fin 5000) : t.val * 5000 + p.val < 50000 := by
  have h1 : t.val < 10 := by have h := t.isLt; have e : cfg1.N = 10 := N_1; omega
  have h2 := p.isLt
  omega

/-! ## The input blocks, read at their coordinates -/

/-- Entry `(p, k)` of the feature block at point `t` is entry `(5000 t + p, k)` of the feature array. -/
theorem feat_read (c : Dev nD) (t : Fin cfg1.N) (p : Fin 5000) (k : Fin 128) :
    iblk1 V c 0 t (ix2 p k) = V c main_v39 (ix2 (⟨t.val * 5000 + p.val, lt_rows t p⟩ : Fin 50000) k) := by
  obtain ⟨e0, e1, -⟩ := idx_facts t
  show V c main_v39 (((cfg1.win 0).blk t).view.emb (ix2 p k)) = _
  refine congrArg (V c main_v39) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The body's load of slab `0` of the weight stack's block is slab `0` of the array. -/
theorem slab0_read (c : Dev nD) (t : Fin cfg1.N) (k q : Fin 128) :
    View.ld (iblk1 V c 1 t) r1_1 (ix3 (0 : Fin 1) k q) = V c main_arg6 (ix3 (0 : Fin 2) k q) := by
  obtain ⟨-, -, e0, e1, e2, -⟩ := idx_facts t
  show V c main_arg6 (((cfg1.win 1).blk t).view.emb (r1_1.idx (ix3 (0 : Fin 1) k q))) = _
  refine congrArg (V c main_arg6) (funext fun a => Fin.ext ?_)
  match a with
  | ⟨0, _⟩ => show win1_1.index t (0 : Fin 3) * 2 + 1 * (0 + 1 * 0) = 0; omega
  | ⟨1, _⟩ => show win1_1.index t (1 : Fin 3) * 128 + 1 * (0 + 1 * k.val) = k.val; omega
  | ⟨2, _⟩ => show win1_1.index t (2 : Fin 3) * 128 + 1 * (0 + 1 * q.val) = q.val; omega

/-- The body's load of slab `1` of the weight stack's block is slab `1` of the array. -/
theorem slab1_read (c : Dev nD) (t : Fin cfg1.N) (k q : Fin 128) :
    View.ld (iblk1 V c 1 t) r1_2 (ix3 (0 : Fin 1) k q) = V c main_arg6 (ix3 (1 : Fin 2) k q) := by
  obtain ⟨-, -, e0, e1, e2, -⟩ := idx_facts t
  show V c main_arg6 (((cfg1.win 1).blk t).view.emb (r1_2.idx (ix3 (0 : Fin 1) k q))) = _
  refine congrArg (V c main_arg6) (funext fun a => Fin.ext ?_)
  match a with
  | ⟨0, _⟩ => show win1_1.index t (0 : Fin 3) * 2 + 1 * (1 + 1 * 0) = 1; omega
  | ⟨1, _⟩ => show win1_1.index t (1 : Fin 3) * 128 + 1 * (0 + 1 * k.val) = k.val; omega
  | ⟨2, _⟩ => show win1_1.index t (2 : Fin 3) * 128 + 1 * (0 + 1 * q.val) = q.val; omega

/-- The root weight's block is the array. -/
theorem root_read (c : Dev nD) (t : Fin cfg1.N) (k q : Fin 128) :
    iblk1 V c 2 t (ix2 k q) = V c main_arg7 (ix2 k q) := by
  obtain ⟨-, -, -, -, -, e0, e1, -⟩ := idx_facts t
  show V c main_arg7 (((cfg1.win 2).blk t).view.emb (ix2 k q)) = _
  refine congrArg (V c main_arg7) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row's block is the array. -/
theorem bias_read (c : Dev nD) (t : Fin cfg1.N) (q : Fin 128) :
    iblk1 V c 3 t (ix2 (0 : Fin 1) q) = V c main_v40 (ix2 (0 : Fin 1) q) := by
  obtain ⟨-, -, -, -, -, -, -, e0, e1, -⟩ := idx_facts t
  show V c main_v40 (((cfg1.win 3).blk t).view.emb (ix2 (0 : Fin 1) q)) = _
  refine congrArg (V c main_v40) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-! ## Result window 4 -/

/-- Entry `(p, q)` of result window 4's block at point `t` sits at `(5000 t + p, q)` of its array. -/
theorem emb4 (t : Fin cfg1.N) (p : Fin 5000) (q : Fin 128) :
    ((cfg1.win 4).blk t).view.emb (ix2 p q) = ix2 (⟨t.val * 5000 + p.val, lt_rows t p⟩ : Fin 50000) q := by
  have e := idx_facts t
  refine funext fun a => Fin.ext ?_
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point `t` writes back through window 4 is block `t` of one function of the arrays the call finds. -/
theorem flushed4_eq (c : Dev nD) (t : Fin cfg1.N) :
    (dat1 V c).flushed 4 t = ((cfg1.win 4).blk t).view.read (Elt Ideal) (Cert.Spec.prodSlab 0 (V c main_v39) (V c main_arg6)) := by
  show (cfg1.win 4).cut (grid1.coords t) ((dat1 V c).after 4 t) = _
  rw [after1_4]
  unfold out1_4
  rw [View.canon_unit_zero hz2]
  simp only [View.ld_unit_zero (S := S5000x128) hz2]
  funext j
  obtain ⟨p, q, rfl⟩ : ∃ (p : Fin 5000) (q : Fin 128), j = ix2 p q := ⟨j 0, j 1, eq_ix2 (n0 := 5000) (n1 := 128) j⟩
  show k1_pay2 (iblk1 V c 0 t) (View.ld (iblk1 V c 1 t) r1_1) (ix2 p q)
      = Cert.Spec.prodSlab 0 (V c main_v39) (V c main_arg6) (((cfg1.win 4).blk t).view.emb (ix2 p q))
  rw [emb4 t p q, Cert.Spec.prodSlab_apply]
  refine (pay1_2_apply _ _ p q).trans ?_
  refine Finset.sum_congr rfl fun k _ => ?_
  rw [feat_read V c t p k, slab0_read V c t k q]

/-- An index of the array is in point `t`'s block iff each coordinate is in the block's range on its axis. -/
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v41_0).slice (win1_4.rect t)).set ↔ _
  rw [View.set_slice_whole, Rect.mem_set_unit]
  exact Iff.rfl

/-- Every index of the array is in the block of the point its row falls in. -/
theorem cover4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  have e := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array of result window 4 after the call. -/
theorem final4 (c : Dev nD) :
    (dat1 V c).arrAt 4 cfg1.N = Cert.Spec.prodSlab 0 (V c main_v39) (V c main_arg6) :=
  (dat1 V c).arrAt_eq_of_cover 4 _ (fun t _ => flushed4_eq V c t) cover4

/-! ## Result window 5 -/

/-- Entry `(p, q)` of result window 5's block at point `t` sits at `(5000 t + p, q)` of its array. -/
theorem emb5 (t : Fin cfg1.N) (p : Fin 5000) (q : Fin 128) :
    ((cfg1.win 5).blk t).view.emb (ix2 p q) = ix2 (⟨t.val * 5000 + p.val, lt_rows t p⟩ : Fin 50000) q := by
  have e := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- What point `t` writes back through window 5 is block `t` of one function of the arrays the call finds. -/
theorem flushed5_eq (c : Dev nD) (t : Fin cfg1.N) :
    (dat1 V c).flushed 5 t = ((cfg1.win 5).blk t).view.read (Elt Ideal) (Cert.Spec.prodSlab 1 (V c main_v39) (V c main_arg6)) := by
  show (cfg1.win 5).cut (grid1.coords t) ((dat1 V c).after 5 t) = _
  rw [after1_5]
  unfold out1_5
  rw [View.canon_unit_zero hz2]
  simp only [View.ld_unit_zero (S := S5000x128) hz2]
  funext j
  obtain ⟨p, q, rfl⟩ : ∃ (p : Fin 5000) (q : Fin 128), j = ix2 p q := ⟨j 0, j 1, eq_ix2 (n0 := 5000) (n1 := 128) j⟩
  show k1_pay3 (iblk1 V c 0 t) (View.ld (iblk1 V c 1 t) r1_2) (ix2 p q)
      = Cert.Spec.prodSlab 1 (V c main_v39) (V c main_arg6) (((cfg1.win 5).blk t).view.emb (ix2 p q))
  rw [emb5 t p q, Cert.Spec.prodSlab_apply]
  refine (pay1_3_apply _ _ p q).trans ?_
  refine Finset.sum_congr rfl fun k _ => ?_
  rw [feat_read V c t p k, slab1_read V c t k q]

/-- An index of the array is in point `t`'s block iff each coordinate is in the block's range on its axis. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41_1).slice (win1_5.rect t)).set ↔ _
  rw [View.set_slice_whole, Rect.mem_set_unit]
  exact Iff.rfl

/-- Every index of the array is in the block of the point its row falls in. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  have e := idx_facts t
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array of result window 5 after the call. -/
theorem final5 (c : Dev nD) :
    (dat1 V c).arrAt 5 cfg1.N = Cert.Spec.prodSlab 1 (V c main_v39) (V c main_arg6) :=
  (dat1 V c).arrAt_eq_of_cover 5 _ (fun t _ => flushed5_eq V c t) cover5

/-! ## Result window 6 -/

/-- Entry `(p, q)` of result window 6's block at point `t` sits at `(5000 t + p, q)` of its array. -/
theorem emb6 (t : Fin cfg1.N) (p : Fin 5000) (q : Fin 128) :
    ((cfg1.win 6).blk t).view.emb (ix2 p q) = ix2 (⟨t.val * 5000 + p.val, lt_rows t p⟩ : Fin 50000) q := by
  have e := idx_facts t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point `t` writes back through window 6 is block `t` of one function of the arrays the call finds. -/
theorem flushed6_eq (c : Dev nD) (t : Fin cfg1.N) :
    (dat1 V c).flushed 6 t = ((cfg1.win 6).blk t).view.read (Elt Ideal) (Cert.Spec.prodRoot (V c main_v39) (V c main_arg7) (V c main_v40)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 (n0 := 5000) (n1 := 128) j⟩
  show k1_pay4 (iblk1 V c 0 t) (iblk1 V c 2 t) (iblk1 V c 3 t) (ix2 p q)
      = Cert.Spec.prodRoot (V c main_v39) (V c main_arg7) (V c main_v40) (((cfg1.win 6).blk t).view.emb (ix2 p q))
  rw [emb6 t p q, Cert.Spec.prodRoot_apply]
  refine (pay1_4_apply _ _ _ p q).trans ?_
  rw [bias_read V c t q]
  refine congrArg (· + V c main_v40 (ix2 (0 : Fin 1) q)) ?_
  refine Finset.sum_congr rfl fun k _ => ?_
  rw [feat_read V c t p k, root_read V c t k q]

/-- An index of the array is in point `t`'s block iff each coordinate is in the block's range on its axis. -/
theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v41_2).slice (win1_6.rect t)).set ↔ _
  rw [View.set_slice_whole, Rect.mem_set_unit]
  exact Iff.rfl

/-- Every index of the array is in the block of the point its row falls in. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  have e := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The array of result window 6 after the call. -/
theorem final6 (c : Dev nD) :
    (dat1 V c).arrAt 6 cfg1.N = Cert.Spec.prodRoot (V c main_v39) (V c main_arg7) (V c main_v40) :=
  (dat1 V c).arrAt_eq_of_cover 6 _ (fun t _ => flushed6_eq V c t) cover6

end Cert.KernelIdeal.Region1

end
-- ==== Proof.KFold.lean ====
/-
  The kernel's program, folded from its last buffer contents back to the launch memory.

  The program is: a host stretch (the edge rows, the first bias as a row), the dense call on the input features, a
  host stretch (the first layer's aggregation), the dense call on the first layer's result, a last host stretch (the
  second layer's aggregation). Boundary by boundary, each buffer a later step reads is named as a function of the
  argument arrays; the result buffer ends at `layer` applied twice, where
  `layer x ei u W root b = meanAgg (rows of ei) u (x · W₀) (x · W₁) + (x · root + b)`.
-/
import proofs.«112366_j81758997447374_1_alg».proof.Proof.Gen.KernelIdeal.Frame
import proofs.«112366_j81758997447374_1_alg».proof.Proof.KLayer
import proofs.«112366_j81758997447374_1_alg».proof.Proof.KRegion0
import proofs.«112366_j81758997447374_1_alg».proof.Proof.KRegion1

noncomputable section

namespace Cert.KernelIdeal.Fold

open Cert.KernelIdeal Cert.KernelIdeal.Gen Idealize.ShloMosaic Idealize.ShloMosaic.TcCoe Idealize.SL.Sem
open Cert.KernelIdeal.HostV Cert.Spec

variable (m : (ℓ : Loc nD τ sig) → Buf (Elt Ideal) ℓ) (ρ : Dev nD → PrngReg)

/-! ## Region 0's entry -/

theorem W1_v1 (c : Dev nD) : W1 m ρ c (Proc.devRef .tc main_v1) = edgeRow0 (m ((c.tc : Thread nD τ).loc main_arg1)) := ops0_v1 (W0 m ρ c)
theorem W1_v3 (c : Dev nD) : W1 m ρ c (Proc.devRef .tc main_v3) = edgeRow1 (m ((c.tc : Thread nD τ).loc main_arg1)) := ops0_v3 (W0 m ρ c)
theorem W1_v4 (c : Dev nD) : W1 m ρ c (Proc.devRef .tc main_v4) = asRow (F := Ideal) (m ((c.tc : Thread nD τ).loc main_arg5)) := ops0_v4 (W0 m ρ c)
theorem W1_arg0 (c : Dev nD) : W1 m ρ c (Proc.devRef .tc main_arg0) = (m ((c.tc : Thread nD τ).loc main_arg0)) := ops0_arg0 (W0 m ρ c)
theorem W1_arg2 (c : Dev nD) : W1 m ρ c (Proc.devRef .tc main_arg2) = (m ((c.tc : Thread nD τ).loc main_arg2)) := ops0_arg2 (W0 m ρ c)
theorem W1_arg3 (c : Dev nD) : W1 m ρ c (Proc.devRef .tc main_arg3) = (m ((c.tc : Thread nD τ).loc main_arg3)) := ops0_arg3 (W0 m ρ c)
theorem W1_arg4 (c : Dev nD) : W1 m ρ c (Proc.devRef .tc main_arg4) = (m ((c.tc : Thread nD τ).loc main_arg4)) := ops0_arg4 (W0 m ρ c)
theorem W1_arg6 (c : Dev nD) : W1 m ρ c (Proc.devRef .tc main_arg6) = (m ((c.tc : Thread nD τ).loc main_arg6)) := ops0_arg6 (W0 m ρ c)
theorem W1_arg7 (c : Dev nD) : W1 m ρ c (Proc.devRef .tc main_arg7) = (m ((c.tc : Thread nD τ).loc main_arg7)) := ops0_arg7 (W0 m ρ c)
theorem W1_arg8 (c : Dev nD) : W1 m ρ c (Proc.devRef .tc main_arg8) = (m ((c.tc : Thread nD τ).loc main_arg8)) := ops0_arg8 (W0 m ρ c)

/-! ## Region 0's exit -/

theorem W2_v5_0 (c : Dev nD) : W2 m ρ c (Proc.devRef .tc main_v5_0) = prodSlab 0 (m ((c.tc : Thread nD τ).loc main_arg0)) (m ((c.tc : Thread nD τ).loc main_arg3)) :=
  (W2_arr m ρ c 4).trans ((Region0.final4 (V1 m ρ) c).trans (congrArg₂ (prodSlab 0) (W1_arg0 m ρ c) (W1_arg3 m ρ c)))
theorem W2_v5_1 (c : Dev nD) : W2 m ρ c (Proc.devRef .tc main_v5_1) = prodSlab 1 (m ((c.tc : Thread nD τ).loc main_arg0)) (m ((c.tc : Thread nD τ).loc main_arg3)) :=
  (W2_arr m ρ c 5).trans ((Region0.final5 (V1 m ρ) c).trans (congrArg₂ (prodSlab 1) (W1_arg0 m ρ c) (W1_arg3 m ρ c)))
theorem W2_v5_2 (c : Dev nD) : W2 m ρ c (Proc.devRef .tc main_v5_2) = prodRoot (m ((c.tc : Thread nD τ).loc main_arg0)) (m ((c.tc : Thread nD τ).loc main_arg4)) (asRow (F := Ideal) (m ((c.tc : Thread nD τ).loc main_arg5))) :=
  (W2_arr m ρ c 6).trans ((Region0.final6 (V1 m ρ) c).trans (prodRoot_congr (W1_arg0 m ρ c) (W1_arg4 m ρ c) (W1_v4 m ρ c)))
theorem W2_v1 (c : Dev nD) : W2 m ρ c (Proc.devRef .tc main_v1) = edgeRow0 (m ((c.tc : Thread nD τ).loc main_arg1)) := (W2_of_ne m ρ c main_v1 (by decide)).trans (W1_v1 m ρ c)
theorem W2_v3 (c : Dev nD) : W2 m ρ c (Proc.devRef .tc main_v3) = edgeRow1 (m ((c.tc : Thread nD τ).loc main_arg1)) := (W2_of_ne m ρ c main_v3 (by decide)).trans (W1_v3 m ρ c)
theorem W2_arg2 (c : Dev nD) : W2 m ρ c (Proc.devRef .tc main_arg2) = (m ((c.tc : Thread nD τ).loc main_arg2)) := (W2_of_ne m ρ c main_arg2 (by decide)).trans (W1_arg2 m ρ c)
theorem W2_arg6 (c : Dev nD) : W2 m ρ c (Proc.devRef .tc main_arg6) = (m ((c.tc : Thread nD τ).loc main_arg6)) := (W2_of_ne m ρ c main_arg6 (by decide)).trans (W1_arg6 m ρ c)
theorem W2_arg7 (c : Dev nD) : W2 m ρ c (Proc.devRef .tc main_arg7) = (m ((c.tc : Thread nD τ).loc main_arg7)) := (W2_of_ne m ρ c main_arg7 (by decide)).trans (W1_arg7 m ρ c)
theorem W2_arg8 (c : Dev nD) : W2 m ρ c (Proc.devRef .tc main_arg8) = (m ((c.tc : Thread nD τ).loc main_arg8)) := (W2_of_ne m ρ c main_arg8 (by decide)).trans (W1_arg8 m ρ c)

/-! ## Region 1's entry: the first layer's result -/

theorem W3_v39 (c : Dev nD) : W3 m ρ c (Proc.devRef .tc main_v39) = layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (ops1_v39 (W2 m ρ c)).trans (by
    rw [W2_v1 m ρ c, W2_v3 m ρ c, W2_arg2 m ρ c, W2_v5_0 m ρ c, W2_v5_1 m ρ c, W2_v5_2 m ρ c]; rfl)
theorem W3_v40 (c : Dev nD) : W3 m ρ c (Proc.devRef .tc main_v40) = asRow (F := Ideal) (m ((c.tc : Thread nD τ).loc main_arg8)) :=
  (ops1_v40 (W2 m ρ c)).trans (congrArg (asRow (F := Ideal)) (W2_arg8 m ρ c))
theorem W3_v1 (c : Dev nD) : W3 m ρ c (Proc.devRef .tc main_v1) = edgeRow0 (m ((c.tc : Thread nD τ).loc main_arg1)) := (ops1_v1 (W2 m ρ c)).trans (W2_v1 m ρ c)
theorem W3_v3 (c : Dev nD) : W3 m ρ c (Proc.devRef .tc main_v3) = edgeRow1 (m ((c.tc : Thread nD τ).loc main_arg1)) := (ops1_v3 (W2 m ρ c)).trans (W2_v3 m ρ c)
theorem W3_arg2 (c : Dev nD) : W3 m ρ c (Proc.devRef .tc main_arg2) = (m ((c.tc : Thread nD τ).loc main_arg2)) := (ops1_arg2 (W2 m ρ c)).trans (W2_arg2 m ρ c)
theorem W3_arg6 (c : Dev nD) : W3 m ρ c (Proc.devRef .tc main_arg6) = (m ((c.tc : Thread nD τ).loc main_arg6)) := (ops1_arg6 (W2 m ρ c)).trans (W2_arg6 m ρ c)
theorem W3_arg7 (c : Dev nD) : W3 m ρ c (Proc.devRef .tc main_arg7) = (m ((c.tc : Thread nD τ).loc main_arg7)) := (ops1_arg7 (W2 m ρ c)).trans (W2_arg7 m ρ c)

/-! ## Region 1's exit -/

theorem W4_v41_0 (c : Dev nD) : W4 m ρ c (Proc.devRef .tc main_v41_0) = prodSlab 0 (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) :=
  (W4_arr m ρ c 4).trans ((Region1.final4 (V3 m ρ) c).trans (congrArg₂ (prodSlab 0) (W3_v39 m ρ c) (W3_arg6 m ρ c)))
theorem W4_v41_1 (c : Dev nD) : W4 m ρ c (Proc.devRef .tc main_v41_1) = prodSlab 1 (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) :=
  (W4_arr m ρ c 5).trans ((Region1.final5 (V3 m ρ) c).trans (congrArg₂ (prodSlab 1) (W3_v39 m ρ c) (W3_arg6 m ρ c)))
theorem W4_v41_2 (c : Dev nD) : W4 m ρ c (Proc.devRef .tc main_v41_2) = prodRoot (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg7)) (asRow (F := Ideal) (m ((c.tc : Thread nD τ).loc main_arg8))) :=
  (W4_arr m ρ c 6).trans ((Region1.final6 (V3 m ρ) c).trans (prodRoot_congr (W3_v39 m ρ c) (W3_arg7 m ρ c) (W3_v40 m ρ c)))
theorem W4_v1 (c : Dev nD) : W4 m ρ c (Proc.devRef .tc main_v1) = edgeRow0 (m ((c.tc : Thread nD τ).loc main_arg1)) := (W4_of_ne m ρ c main_v1 (by decide)).trans (W3_v1 m ρ c)
theorem W4_v3 (c : Dev nD) : W4 m ρ c (Proc.devRef .tc main_v3) = edgeRow1 (m ((c.tc : Thread nD τ).loc main_arg1)) := (W4_of_ne m ρ c main_v3 (by decide)).trans (W3_v3 m ρ c)
theorem W4_arg2 (c : Dev nD) : W4 m ρ c (Proc.devRef .tc main_arg2) = (m ((c.tc : Thread nD τ).loc main_arg2)) := (W4_of_ne m ρ c main_arg2 (by decide)).trans (W3_arg2 m ρ c)

/-! ## The result buffer -/

/-- The result buffer ends at the layer applied twice. -/
theorem W5_v75 (c : Dev nD) : W5 m ρ c (Proc.devRef .tc main_v75)
    = layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) :=
  (ops2_v75 (W4 m ρ c)).trans (by
    rw [W4_v1 m ρ c, W4_v3 m ρ c, W4_arg2 m ρ c, W4_v41_0 m ρ c, W4_v41_1 m ρ c, W4_v41_2 m ρ c]; rfl)

end Cert.KernelIdeal.Fold

end
-- ==== Proof.RLayer.lean ====
/-
  The reference program's result as two applications of one layer function.

  One layer takes node features `x`, the edge list, the edge attribute `u`, a stack of two weight slabs, a root weight
  and a bias, and returns `mean over incoming edges of ((1 - u) · (x W₀)[src] + u · (x W₁)[src]) + x · root + b`.
  The reference applies it twice, the second time to the first's result.
-/
import proofs.«112366_j81758997447374_1_alg».proof.Proof.Gen.ReferenceIdeal.Run

noncomputable section

namespace Cert.ReferenceIdeal.RefV

open Cert.ReferenceIdeal Cert.ReferenceIdeal.Gen Idealize.ShloMosaic Idealize.ShloMosaic.TcCoe Idealize.SL.Sem

variable {F : FTy → Type} [FloatOps F]

/-- The edges' source nodes: row 0 of the edge list. -/
def row0 (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The edges' destination nodes: row 1 of the edge list. -/
def row1 (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- Slab 0 of a stack of two weight matrices. -/
def slab0 (W : (⟨S2x128x128, .f32⟩ : BufTy).Contents (Elt F)) : (⟨S128x128, .f32⟩ : BufTy).Contents (Elt F) :=
  shapeCast _ (extractStridedSlice S1x128x128 ![0, 0, 0] W slices_S2x128x128_S1x128x128_0_0_0) shapeCasts_S1x128x128_S128x128

/-- Slab 1 of a stack of two weight matrices. -/
def slab1 (W : (⟨S2x128x128, .f32⟩ : BufTy).Contents (Elt F)) : (⟨S128x128, .f32⟩ : BufTy).Contents (Elt F) :=
  shapeCast _ (extractStridedSlice S1x128x128 ![1, 0, 0] W slices_S2x128x128_S1x128x128_1_0_0) shapeCasts_S1x128x128_S128x128

/-- The mean, over the edges ending at each node, of the messages `(1 - u) · h0[src] + u · h1[src]`. -/
def meanAgg (src dst : (⟨S600000, .i32⟩ : BufTy).Contents (Elt F)) (u : (⟨S600000x1, .f32⟩ : BufTy).Contents (Elt F))
    (h0 h1 : (⟨S50000x128, .f32⟩ : BufTy).Contents (Elt F)) : (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (addf (mulf (broadcastInDim S600000x128 ![0, 1] bcast_S600000x1_S600000x128_0_1 (subf (broadcastInDim S600000x1 ![] bcast_S_S600000x1 (constant S_ .f32 0x3F800000#32)) u)) (Host.gather gather_S50000x128_S600000x1_S600000x128_1_0_n_n_0_1_1128 h0 (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))) (mulf (broadcastInDim S600000x128 ![0, 1] bcast_S600000x1_S600000x128_0_1 u) (Host.gather gather_S50000x128_S600000x1_S600000x128_1_0_n_n_0_1_1128 h1 (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))) (broadcastInDim S50000 ![] bcast_S_S50000 (constant S_ .f32 0x3F800000#32)))))

/-- One layer. -/
def layer (x : (⟨S50000x128, .f32⟩ : BufTy).Contents (Elt F)) (ei : (⟨S2x600000, .i32⟩ : BufTy).Contents (Elt F)) (u : (⟨S600000x1, .f32⟩ : BufTy).Contents (Elt F))
    (W : (⟨S2x128x128, .f32⟩ : BufTy).Contents (Elt F)) (root : (⟨S128x128, .f32⟩ : BufTy).Contents (Elt F)) (b : (⟨S128, .f32⟩ : BufTy).Contents (Elt F)) : (⟨S50000x128, .f32⟩ : BufTy).Contents (Elt F) :=
  addf (addf (meanAgg (row0 ei) (row1 ei) u
        (Host.dotGeneral dot_S50000x128_S128x128_S50000x128_1_0_0_1_n_n none x (slab0 W))
        (Host.dotGeneral dot_S50000x128_S128x128_S50000x128_1_0_0_1_n_n none x (slab1 W)))
      (Host.dotGeneral dot_S50000x128_S128x128_S50000x128_1_0_0_1_n_n none x root))
    (broadcastInDim S50000x128 ![0, 1] bcast_S1x128_S50000x128_0_1 (broadcastInDim S1x128 ![1] bcast_S128_S1x128_1 b))

set_option maxRecDepth 8192 in
/-- The run's result term is the layer applied twice. -/
theorem res_eq (m : (ℓ : Loc nD τ sig) → Buf (Elt F) ℓ) (c : Dev nD) :
    Cert.ReferenceIdeal.Value.res_main_v91 m c
      = layer (layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8)) := by
  unfold Cert.ReferenceIdeal.Value.res_main_v91
  rfl

end Cert.ReferenceIdeal.RefV

end
-- ==== Proof.Bridge.lean ====
/-
  The reference's layer is the kernel's layer, at the extended reals.

  Both blend, gather, scatter-sum and divide with the same host operations, applied to the same two slab products
  `x · W₀` and `x · W₁` (a host product read at an entry is the same sum over the contracted coordinate as the kernel's).
  They differ only in where the bias joins: the reference adds `x · root` to the aggregate and then the bias, the
  kernel adds the aggregate to `x · root + bias`. Addition of extended reals is associative, so the two agree at every
  entry, with no finiteness needed.
-/
import proofs.«112366_j81758997447374_1_alg».proof.Proof.RLayer
import proofs.«112366_j81758997447374_1_alg».proof.Proof.KLayer
import proofs.«112366_j81758997447374_1_alg».proof.Proof.LibPlainProduct
import Idealize.ShloMosaic.Lib.KernelVsHost
import Idealize.ShloMosaic.Lib.Pipeline.Value
import Idealize.ShloMosaic.Lib.ValueIdx

noncomputable section

namespace Cert.Bridge

open Cert.ReferenceIdeal Cert.ReferenceIdeal.Gen Idealize.ShloMosaic Idealize.ShloMosaic.ValueIdx
open Cert.ReferenceIdeal.RefV

/-! ## The shared host operations -/

theorem row0_eq (ei : (⟨S2x600000, .i32⟩ : BufTy).Contents (Elt Ideal)) : row0 (F := Ideal) ei = Cert.KernelIdeal.HostV.edgeRow0 ei := rfl
theorem row1_eq (ei : (⟨S2x600000, .i32⟩ : BufTy).Contents (Elt Ideal)) : row1 (F := Ideal) ei = Cert.KernelIdeal.HostV.edgeRow1 ei := rfl

theorem meanAgg_eq (src dst : (⟨S600000, .i32⟩ : BufTy).Contents (Elt Ideal)) (u : (⟨S600000x1, .f32⟩ : BufTy).Contents (Elt Ideal)) (h0 h1 : (⟨S50000x128, .f32⟩ : BufTy).Contents (Elt Ideal)) :
    meanAgg (F := Ideal) src dst u h0 h1 = Cert.KernelIdeal.HostV.meanAgg src dst u h0 h1 := rfl

/-! ## The slab products -/

theorem slab0_apply (W : FVec Ideal S2x128x128 .f32) (k q : Fin 128) : slab0 (F := Ideal) W (ix2 k q) = W (ix3 (0 : Fin 2) k q) := by
  unfold slab0
  refine (shapeCast_apply _ _ (ix2 k q) (ix3 (0 : Fin 1) k q) ?_).trans ?_
  · rw [Shape.rowMajor_val_three, Shape.rowMajor_val_two]
    show (0 * 128 + k.val) * 128 + q.val = k.val * 128 + q.val
    omega
  · refine extractStridedSlice_apply ![0, 0, 0] W _ (ix3 (0 : Fin 1) k q) (ix3 (0 : Fin 2) k q) fun a => ?_
    match a with
    | ⟨0, _⟩ => rfl
    | ⟨1, _⟩ => show k.val = 0 + k.val; omega
    | ⟨2, _⟩ => show q.val = 0 + q.val; omega

theorem slab1_apply (W : FVec Ideal S2x128x128 .f32) (k q : Fin 128) : slab1 (F := Ideal) W (ix2 k q) = W (ix3 (1 : Fin 2) k q) := by
  unfold slab1
  refine (shapeCast_apply _ _ (ix2 k q) (ix3 (0 : Fin 1) k q) ?_).trans ?_
  · rw [Shape.rowMajor_val_three, Shape.rowMajor_val_two]
    show (0 * 128 + k.val) * 128 + q.val = k.val * 128 + q.val
    omega
  · refine extractStridedSlice_apply ![1, 0, 0] W _ (ix3 (0 : Fin 1) k q) (ix3 (1 : Fin 2) k q) fun a => ?_
    match a with
    | ⟨0, _⟩ => rfl
    | ⟨1, _⟩ => show k.val = 0 + k.val; omega
    | ⟨2, _⟩ => show q.val = 0 + q.val; omega

/-- The host's product of the features with slab 0 is the sum over the contracted coordinate. -/
theorem dot_slab0 (x : FVec Ideal S50000x128 .f32) (W : FVec Ideal S2x128x128 .f32) :
    Host.dotGeneral (φ₂ := .f32) dot_S50000x128_S128x128_S50000x128_1_0_0_1_n_n none x (slab0 (F := Ideal) W) = Cert.Spec.prodSlab 0 x W := by
  funext i
  obtain ⟨n, q, rfl⟩ : ∃ (n : Fin 50000) (q : Fin 128), i = ix2 n q := ⟨i 0, i 1, eq_ix2 (n0 := 50000) (n1 := 128) i⟩
  rw [Cert.Spec.prodSlab_apply]
  refine (Cert.PlainProduct.dotGeneral_plain_apply' dot_S50000x128_S128x128_S50000x128_1_0_0_1_n_n rfl none x _ n q).trans ?_
  refine Finset.sum_congr rfl fun k _ => ?_
  rw [slab0_apply]

/-- The host's product of the features with slab 1 is the sum over the contracted coordinate. -/
theorem dot_slab1 (x : FVec Ideal S50000x128 .f32) (W : FVec Ideal S2x128x128 .f32) :
    Host.dotGeneral (φ₂ := .f32) dot_S50000x128_S128x128_S50000x128_1_0_0_1_n_n none x (slab1 (F := Ideal) W) = Cert.Spec.prodSlab 1 x W := by
  funext i
  obtain ⟨n, q, rfl⟩ : ∃ (n : Fin 50000) (q : Fin 128), i = ix2 n q := ⟨i 0, i 1, eq_ix2 (n0 := 50000) (n1 := 128) i⟩
  rw [Cert.Spec.prodSlab_apply]
  refine (Cert.PlainProduct.dotGeneral_plain_apply' dot_S50000x128_S128x128_S50000x128_1_0_0_1_n_n rfl none x _ n q).trans ?_
  refine Finset.sum_congr rfl fun k _ => ?_
  rw [slab1_apply]

/-! ## The root product and the bias -/

/-- The bias, laid along axis 1 of one row and repeated down the rows, read at an entry. -/
theorem bias_apply (b : FVec Ideal S128 .f32) (n : Fin 50000) (q : Fin 128) :
    broadcastInDim S50000x128 ![0, 1] bcast_S1x128_S50000x128_0_1 (broadcastInDim S1x128 ![1] bcast_S128_S1x128_1 b) (ix2 n q) = b (ix1 q) := by
  refine (broadcastInDim_oneRow_apply bcast_S1x128_S50000x128_0_1 _ n q).trans ?_
  refine broadcastInDim_apply ![1] bcast_S128_S1x128_1 b (ix2 (0 : Fin 1) q) (ix1 q) fun a => ?_
  match a with
  | ⟨0, _⟩ => show q.val = if (128 : ℕ) = 1 then 0 else q.val; simp

/-- The bias laid out as one row by a change of shape, read at an entry. -/
theorem asRow_apply (b : FVec Ideal S128 .f32) (q : Fin 128) :
    Cert.KernelIdeal.HostV.asRow (F := Ideal) b (ix2 (0 : Fin 1) q) = b (ix1 q) := by
  unfold Cert.KernelIdeal.HostV.asRow
  refine shapeCast_apply b _ (ix2 (0 : Fin 1) q) (ix1 q) ?_
  rw [Shape.rowMajor_val_one, Shape.rowMajor_val_two]
  show q.val = 0 * 128 + q.val
  omega

/-- `(a + x · root) + b = a + (x · root + b)`, entry by entry. -/
theorem root_bias (A x : FVec Ideal S50000x128 .f32) (root : FVec Ideal S128x128 .f32) (b : FVec Ideal S128 .f32) :
    addf (addf A (Host.dotGeneral dot_S50000x128_S128x128_S50000x128_1_0_0_1_n_n none x root))
        (broadcastInDim S50000x128 ![0, 1] bcast_S1x128_S50000x128_0_1 (broadcastInDim S1x128 ![1] bcast_S128_S1x128_1 b))
      = addf A (Cert.Spec.prodRoot x root (Cert.KernelIdeal.HostV.asRow (F := Ideal) b)) := by
  funext i
  obtain ⟨n, q, rfl⟩ : ∃ (n : Fin 50000) (q : Fin 128), i = ix2 n q := ⟨i 0, i 1, eq_ix2 (n0 := 50000) (n1 := 128) i⟩
  simp only [addf_apply]
  rw [Cert.Spec.prodRoot_apply, Cert.PlainProduct.dotGeneral_plain_apply' dot_S50000x128_S128x128_S50000x128_1_0_0_1_n_n rfl none x root n q, bias_apply, asRow_apply, add_assoc]

/-! ## The layer -/

/-- The reference's layer is the kernel's. -/
theorem layer_eq (x : (⟨S50000x128, .f32⟩ : BufTy).Contents (Elt Ideal)) (ei : (⟨S2x600000, .i32⟩ : BufTy).Contents (Elt Ideal)) (u : (⟨S600000x1, .f32⟩ : BufTy).Contents (Elt Ideal))
    (W : (⟨S2x128x128, .f32⟩ : BufTy).Contents (Elt Ideal)) (root : (⟨S128x128, .f32⟩ : BufTy).Contents (Elt Ideal)) (b : (⟨S128, .f32⟩ : BufTy).Contents (Elt Ideal)) :
    layer (F := Ideal) x ei u W root b = Cert.KernelIdeal.Fold.layer x ei u W root b := by
  unfold layer Cert.KernelIdeal.Fold.layer
  rw [dot_slab0, dot_slab1, root_bias, meanAgg_eq, row0_eq, row1_eq]

end Cert.Bridge

end
-- ==== Proof.lean ====
/-
  Two layers of a spline-based graph convolution (two basis functions, mean aggregation), kernel against reference, at
  the extended reals.

  One layer maps node features `x : [50000, 128]` to
      mean over the edges e ending at a node of ((1 - u e) · (x · W₀)[src e] + u e · (x · W₁)[src e])  +  x · root  +  b.
  The kernel's program computes the three dense products `x · W₀`, `x · W₁` and `x · root + b` in a tiled call (ten
  blocks of 5000 rows; matrices rounded to bf16 on the way in, which is the identity at the extended reals) and does the
  gather, the blend, the scatter-sum, the division by the in-degree and the last addition on the host. The reference
  does everything on the host with whole-array products, and adds the bias last.

  * The tiled products are the whole-array products: entry `(n, q)` of either is `∑ k, x (n, k) · w (k, q)`, and the
    ten row blocks cover the array.
  * The host chains are the same operations applied to equal arrays.
  * `(a + x · root) + b = a + (x · root + b)`: addition of extended reals is associative. No finiteness is used, so the
    second layer needs nothing about the first layer's result.

  The frames of the two kernel programs are the generated ones; the reference's frame is its generated run with the
  result dropped; the idealization rewrote nothing, so `preserves` is `True`.
-/
import proofs.«112366_j81758997447374_1_alg».proof.Defs
import proofs.«112366_j81758997447374_1_alg».proof.Proof.Gen.Kernel
import proofs.«112366_j81758997447374_1_alg».proof.Proof.Gen.Kernel.Frame
import proofs.«112366_j81758997447374_1_alg».proof.Proof.Gen.KernelIdeal
import proofs.«112366_j81758997447374_1_alg».proof.Proof.Gen.KernelIdeal.Frame
import proofs.«112366_j81758997447374_1_alg».proof.Proof.Gen.ReferenceIdeal
import proofs.«112366_j81758997447374_1_alg».proof.Proof.Gen.ReferenceIdeal.Run
import proofs.«112366_j81758997447374_1_alg».proof.Proof.Gen.Pre_finite_inputs
import proofs.«112366_j81758997447374_1_alg».proof.Proof.KFrame
import proofs.«112366_j81758997447374_1_alg».proof.Proof.KFold
import proofs.«112366_j81758997447374_1_alg».proof.Proof.RLayer
import proofs.«112366_j81758997447374_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer applied twice to the argument arrays: the kernel's by the fold of its program
    through the two calls, the reference's by its run and the bridge between the two spellings of a layer. -/
theorem algebraic : Cert.algebraic_KernelIdeal_ReferenceIdeal := by
  intro m ρ m' ρ' _ hagree
  refine ⟨fun c => Cert.KernelIdeal.Fold.layer
      (Cert.KernelIdeal.Fold.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.W5_v75 m ρ c), (h c).2⟩)
      (Cert.KernelIdeal.GenP.frame_res m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefV.res_eq, Cert.Bridge.layer_eq, Cert.Bridge.layer_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
